-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048 : Shape := ⟨2, ![4, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048 : S_.BroadcastsInDim S4x2048 (![] : Fin 0 → Fin S4x2048.rank)
  reducesTo_S4x2048_S_d0_1 : S4x2048.ReducesTo [0, 1] S_

variable [Facts]

def fn {F : FTy → Type} [FloatOps F] (main_arg0 : FVec F S4x4096x2048 .f32) (main_arg1 : FVec F S4x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048 .f32 := Host.absf main_arg1
  let main_cst_0 : FVec F S_ .f32 := constant S_ .f32 0x7F800000#32
  let main_v5 : FVec F S4x2048 .f32 := broadcastInDim S4x2048 ![] bcast_S_S4x2048 main_cst_0
  let main_v6 : IVec S4x2048 1 := cmpf .olt main_v4 main_v5
  let main_c_1 : IVec S_ 1 := constantI S_ 1 1#1
  let main_v7 : IVec S_ 1 := (fun x v => Host.reduce IntOp.andi x v reducesTo_S4x2048_S_d0_1 h_S_) main_v6 main_c_1
  let main_v8 : IVec S_ 1 := andi main_v3 main_v7
  main_v8
-- ==== Kernel.lean ====
abbrev S4x4096x2048 : Shape := ⟨3, ![4, 4096, 2048]⟩
abbrev S4x2048 : Shape := ⟨2, ![4, 2048]⟩
abbrev S1x512x2048 : Shape := ⟨3, ![1, 512, 2048]⟩
abbrev S8x2048 : Shape := ⟨2, ![8, 2048]⟩
abbrev S512x2048 : Shape := ⟨2, ![512, 2048]⟩
abbrev S3x2048 : Shape := ⟨2, ![3, 2048]⟩
abbrev S515x2048 : Shape := ⟨2, ![515, 2048]⟩
abbrev S1x2048 : Shape := ⟨2, ![1, 2048]⟩
abbrev S2048 : Shape := ⟨1, ![2048]⟩
abbrev S4x4x2048 : Shape := ⟨3, ![4, 4, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S4x4096x2048, .f32⟩
  | .hbm, ⟨3, _⟩ => ⟨S4x4x2048, .f32⟩
  | .local _ .vmem, ⟨0, _⟩ => ⟨S1x512x2048, .f32⟩
  | .local _ .vmem, ⟨1, _⟩ => ⟨S1x512x2048, .f32⟩
  | .local _ .vmem, ⟨2, _⟩ => ⟨S4x2048, .f32⟩
  | .local _ .vmem, ⟨3, _⟩ => ⟨S1x512x2048, .f32⟩
  | .local _ .vmem, ⟨4, _⟩ => ⟨S1x512x2048, .f32⟩
  | .local _ .vmem, ⟨5, _⟩ => ⟨S8x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S4x2048_S4x2048_0_0 : ∀ a, (![0, 0] : Fin 2 → Nat) a + S4x2048.size a ≤ S4x2048.size a
  h_S4x2048 : 0 < S4x2048.numel
  slices_S8x2048_o5_0_S3x2048 : S8x2048.Slices ![5, 0] S3x2048
  concatenates_S3x2048_S512x2048_S515x2048_d0 : Shape.Concatenates [S3x2048, S512x2048] S515x2048 0
  slices_S515x2048_o0_0_S512x2048 : S515x2048.Slices ![0, 0] S512x2048
  slices_S4x2048_o0_0_S1x2048 : S4x2048.Slices ![0, 0] S1x2048
  shapeCasts_S1x2048_S2048 : S1x2048.ShapeCasts S2048
  shapeCasts_S2048_S1x2048 : S2048.ShapeCasts S1x2048
  broadcasts_S1x2048_S512x2048 : S1x2048.Broadcasts S512x2048
  slices_S515x2048_o1_0_S512x2048 : S515x2048.Slices ![1, 0] S512x2048
  slices_S4x2048_o1_0_S1x2048 : S4x2048.Slices ![1, 0] S1x2048
  slices_S515x2048_o2_0_S512x2048 : S515x2048.Slices ![2, 0] S512x2048
  slices_S4x2048_o2_0_S1x2048 : S4x2048.Slices ![2, 0] S1x2048
  slices_S515x2048_o3_0_S512x2048 : S515x2048.Slices ![3, 0] S512x2048
  slices_S4x2048_o3_0_S1x2048 : S4x2048.Slices ![3, 0] S1x2048
  shapeCasts_S512x2048_S1x512x2048 : S512x2048.ShapeCasts S1x512x2048
  slices_S512x2048_o504_0_S8x2048 : S512x2048.Slices ![504, 0] S8x2048
  slices_S4x4096x2048_S4x4x2048_0_4092_0 : S4x4096x2048.Slices ![0, 4092, 0] S4x4x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x2048.size a ≤ S4x2048.size a
  hwx0_1 : ∀ i : grid0.Coords, EltTy.bits .f32 = 32 ∨ (Rect.block (s := S4x2048) S4x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S4x4096x2048.size a
  hwx0_2 : ∀ i : grid0.Coords, EltTy.bits .f32 = 32 ∨ (Rect.block (s := S4x4096x2048) S1x512x2048.size (cc0_transform_2 i) (hinb0_2 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048 : Shape := ⟨2, ![4, 2048]⟩
abbrev S_ : Shape := ⟨0, ![]⟩
abbrev S4x4099x2048 : Shape := ⟨3, ![4, 4099, 2048]⟩
abbrev S1x2048 : Shape := ⟨2, ![1, 2048]⟩
abbrev S2048 : Shape := ⟨1, ![2048]⟩
abbrev S1x1x2048 : Shape := ⟨3, ![1, 1, 2048]⟩
abbrev S4x4x2048 : Shape := ⟨3, ![4, 4, 2048]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048, .f32⟩
  | .hbm, ⟨2, _⟩ => ⟨S_, .i32⟩
  | .hbm, ⟨3, _⟩ => ⟨S_, .f32⟩
  | .hbm, ⟨4, _⟩ => ⟨S4x4099x2048, .f32⟩
  | .hbm, ⟨5, _⟩ => ⟨S4x4096x2048, .f32⟩
  | .hbm, ⟨6, _⟩ => ⟨S1x2048, .f32⟩
  | .hbm, ⟨7, _⟩ => ⟨S2048, .f32⟩
  | .hbm, ⟨8, _⟩ => ⟨S1x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S1x2048, .f32⟩
  | .hbm, ⟨13, _⟩ => ⟨S2048, .f32⟩
  | .hbm, ⟨14, _⟩ => ⟨S1x1x2048, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S4x4096x2048, .f32⟩
  | .hbm, ⟨19, _⟩ => ⟨S1x2048, .f32⟩
  | .hbm, ⟨20, _⟩ => ⟨S2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S_, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S4x4x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_call1_v0 : Ref sig .tc := ⟨.hbm, 32, rfl⟩
abbrev main_call1_v1 : Ref sig .tc := ⟨.hbm, 33, rfl⟩
abbrev main_call1_cst : Ref sig .tc := ⟨.hbm, 34, rfl⟩
abbrev main_call1_v2 : Ref sig .tc := ⟨.hbm, 35, rfl⟩
abbrev main_call1_v3 : Ref sig .tc := ⟨.hbm, 36, rfl⟩
abbrev main_call1_cst_0 : Ref sig .tc := ⟨.hbm, 37, rfl⟩
abbrev main_call1_v4 : Ref sig .tc := ⟨.hbm, 38, rfl⟩
abbrev main_call1_v5 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]

class Facts₀ : Prop where
  pads_S4x4096x2048_S4x4099x2048_000_300_000 : S4x4096x2048.Pads (![0, 3, 0] : Fin 3 → Nat) ![0, 0, 0] ![0, 0, 0] S4x4099x2048
  h_S_ : 0 < S_.numel
  slices_S4x4099x2048_S4x4096x2048_0_0_0 : S4x4099x2048.Slices ![0, 0, 0] S4x4096x2048
  slices_S4x2048_S1x2048_0_0 : S4x2048.Slices ![0, 0] S1x2048
  shapeCasts_S1x2048_S2048 : S1x2048.ShapeCasts S2048
  bcast_S2048_S1x1x2048_2 : S2048.BroadcastsInDim S1x1x2048 (![2] : Fin 1 → Fin S1x1x2048.rank)
  bcast_S1x1x2048_S4x4096x2048_0_1_2 : S1x1x2048.BroadcastsInDim S4x4096x2048 (![0, 1, 2] : Fin 3 → Fin S4x4096x2048.rank)
  slices_S4x4099x2048_S4x4096x2048_0_1_0 : S4x4099x2048.Slices ![0, 1, 0] S4x4096x2048
  slices_S4x2048_S1x2048_1_0 : S4x2048.Slices ![1, 0] S1x2048
  slices_S4x4099x2048_S4x4096x2048_0_2_0 : S4x4099x2048.Slices ![0, 2, 0] S4x4096x2048
  slices_S4x2048_S1x2048_2_0 : S4x2048.Slices ![2, 0] S1x2048
  slices_S4x4099x2048_S4x4096x2048_0_3_0 : S4x4099x2048.Slices ![0, 3, 0] S4x4096x2048
  slices_S4x2048_S1x2048_3_0 : S4x2048.Slices ![3, 0] S1x2048
  bcast_S_S4x4096x2048 : S_.BroadcastsInDim S4x4096x2048 (![] : Fin 0 → Fin S4x4096x2048.rank)
  slices_S4x4096x2048_S4x4x2048_0_4092_0 : S4x4096x2048.Slices ![0, 4092, 0] S4x4x2048

variable [Facts₀]

class Facts : Prop extends Facts₀ where

variable [Facts]
-- ==== Proof.Spec.lean ====
/-
  The specification: a causal depthwise convolution with four taps along the sequence axis, followed by
  v ↦ v · σ(v), over extended reals.

  For batch b, position s and channel d the result is

      silu ( ((p s · w₀ + p (1+s) · w₁) + p (2+s) · w₂) + p (3+s) · w₃ ),

  where p is the sequence x[b, ·, d] with three zeros put in front (p n = x[b, n-3, d] for n ≥ 3, and 0 before)
  and wₖ = w[k, d]. The four products are added left to right; nothing here uses commutativity, associativity
  or distributivity, so the statement holds at infinite entries as well as at finite ones.
-/
import Idealize.ShloMosaic.PureOps.Ideal
import Idealize.ShloMosaic.Lib.ValueIdx

noncomputable section

namespace Cert.CausalConv

open Idealize.ShloMosaic Idealize.ShloMosaic.ValueIdx

/-- Batch × sequence position × channel. -/
abbrev SSeq : Shape := ⟨3, ![4, 4096, 2048]⟩
/-- Tap × channel. -/
abbrev STaps : Shape := ⟨2, ![4, 2048]⟩

/-- Four taps applied to the four consecutive entries `s, 1+s, 2+s, 3+s` of a row, the products added left to right. -/
def taps (row : ℕ → EReal) (w0 w1 w2 w3 : EReal) (s : ℕ) : EReal :=
  ((row s * w0 + row (1 + s) * w1) + row (2 + s) * w2) + row (3 + s) * w3

/-- `v · σ(v)` with `σ v = 1 / (1 + e^(-v))`. -/
def silu (v : EReal) : EReal := v * Ideal.logistic v

/-- The sequence of batch `b` and channel `d` with three zeros in front: entry `n` is `x[b, n-3, d]`, and `0`
    for `n < 3` (and past the end, which no tap reaches). -/
def shifted (x : FVec Ideal SSeq .f32) (b : Fin 4) (d : Fin 2048) (n : ℕ) : EReal :=
  if h : 3 ≤ n ∧ n - 3 < 4096 then x (ix3 b ⟨n - 3, h.2⟩ d) else 0

/-- The whole result array as one function of the two argument arrays. -/
def conv (x : FVec Ideal SSeq .f32) (w : FVec Ideal STaps .f32) : FVec Ideal SSeq .f32 := fun i =>
  silu (taps (shifted x (i 0) (i 2)) (w (ix2 (0 : Fin 4) (i 2))) (w (ix2 (1 : Fin 4) (i 2))) (w (ix2 (2 : Fin 4) (i 2)))
    (w (ix2 (3 : Fin 4) (i 2))) (i 1).val)

/-- The taps read four entries only: a row read from `s` and another read from `s'` that agree on them give the
    same value. -/
theorem taps_congr {row row' : ℕ → EReal} (w0 w1 w2 w3 : EReal) (s s' : ℕ)
    (h : ∀ k, k ≤ 3 → row (k + s) = row' (k + s')) : taps row w0 w1 w2 w3 s = taps row' w0 w1 w2 w3 s' := by
  unfold taps
  have h0 := h 0 (by omega); have h1 := h 1 (by omega); have h2 := h 2 (by omega); have h3 := h 3 (by omega)
  rw [Nat.zero_add, Nat.zero_add] at h0
  rw [h0, h1, h2, h3]

end Cert.CausalConv

end
-- ==== Proof.RefValue.lean ====
/-
  The reference program computes the specification.

  It pads x with three zeros in front along the sequence axis, takes the four windows [k, k + 4096) of the padded
  array, multiplies window k by tap k (a row of w broadcast over batch and position), adds the products left to
  right, and multiplies the sum v by 1 / (1 + e^(-v)). Read at an index (b, s, d): window k of the padded array
  is its entry k + s, which is x[b, k+s-3, d] from the third entry on and the padding value before; the padding
  value is the integer 0 converted, the real number 0; and 1 / (1 + e^(-v)) written with the host's negate,
  exponential, add and divide is the logistic function on every extended real.
-/
import proofs.«144055_j730144440447_1_alg».proof.Proof.Gen.ReferenceIdeal.Read
import proofs.«144055_j730144440447_1_alg».proof.Proof.Spec
import Idealize.ShloMosaic.Lib.KernelVsHost
import Idealize.ShloMosaic.Lib.IdealHost
import Idealize.ShloMosaic.Lib.ValueIdx
import Idealize.ShloMosaic.Lib.Pipeline.Value

noncomputable section

namespace Cert.ReferenceIdeal.RefValue

open Cert.ReferenceIdeal Cert.ReferenceIdeal.Read Idealize.ShloMosaic Idealize.ShloMosaic.ValueIdx Cert.CausalConv

/-- The padded array at (b, n, d) is entry `n` of the sequence x[b, ·, d] with three zeros in front. -/
theorem padded_apply (x0 : FVec Ideal S4x4096x2048 .f32) (j : S4x4099x2048.Idx) :
    val_main_v0 (F := Ideal) x0 j = shifted x0 (j 0) (j 2) (j 1).val := by
  unfold val_main_v0 shifted
  have hj : (j 1).val < 4099 := (j 1).isLt
  by_cases h : 3 ≤ (j 1).val
  · have hlt : (j 1).val - 3 < 4096 := by omega
    rw [dif_pos ⟨h, hlt⟩]
    exact pad_apply_of_inside _ _ _ x0 _ _ _ j (ix3 (j 0) ⟨(j 1).val - 3, hlt⟩ (j 2)) (fun a => match a with
      | ⟨0, _⟩ => by show (j 0).val = 0 + (j 0).val * (0 + 1); omega
      | ⟨1, _⟩ => by show (j 1).val = 3 + ((j 1).val - 3) * (0 + 1); omega
      | ⟨2, _⟩ => by show (j 2).val = 0 + (j 2).val * (0 + 1); omega)
  · rw [dif_neg (fun hh => h hh.1)]
    refine (pad_apply_of_not_inside _ _ _ x0 _ _ _ j (1 : Fin 3) (fun hh => h hh.1)).trans ?_
    exact sitofp_zero

/-- Tap `k` broadcast over batch and position, read at an index, is `w[k, d]`. -/
theorem tap0_apply (x1 : FVec Ideal S4x2048 .f32) (i : S4x4096x2048.Idx) :
    val_main_v5 (F := Ideal) x1 i = x1 (ix2 (0 : Fin 4) (i 2)) := by
  rw [val_main_v5_apply, val_main_v4_apply, val_main_v3_apply, val_main_v2_apply]
  exact congrArg x1 (funext fun a => Fin.ext (by
    match a with
    | ⟨0, _⟩ => rfl
    | ⟨1, _⟩ => exact Nat.mod_eq_of_lt (i 2).isLt))
theorem tap1_apply (x1 : FVec Ideal S4x2048 .f32) (i : S4x4096x2048.Idx) :
    val_main_v11 (F := Ideal) x1 i = x1 (ix2 (1 : Fin 4) (i 2)) := by
  rw [val_main_v11_apply, val_main_v10_apply, val_main_v9_apply, val_main_v8_apply]
  exact congrArg x1 (funext fun a => Fin.ext (by
    match a with
    | ⟨0, _⟩ => rfl
    | ⟨1, _⟩ => exact Nat.mod_eq_of_lt (i 2).isLt))
theorem tap2_apply (x1 : FVec Ideal S4x2048 .f32) (i : S4x4096x2048.Idx) :
    val_main_v18 (F := Ideal) x1 i = x1 (ix2 (2 : Fin 4) (i 2)) := by
  rw [val_main_v18_apply, val_main_v17_apply, val_main_v16_apply, val_main_v15_apply]
  exact congrArg x1 (funext fun a => Fin.ext (by
    match a with
    | ⟨0, _⟩ => rfl
    | ⟨1, _⟩ => exact Nat.mod_eq_of_lt (i 2).isLt))
theorem tap3_apply (x1 : FVec Ideal S4x2048 .f32) (i : S4x4096x2048.Idx) :
    val_main_v25 (F := Ideal) x1 i = x1 (ix2 (3 : Fin 4) (i 2)) := by
  rw [val_main_v25_apply, val_main_v24_apply, val_main_v23_apply, val_main_v22_apply]
  exact congrArg x1 (funext fun a => Fin.ext (by
    match a with
    | ⟨0, _⟩ => rfl
    | ⟨1, _⟩ => exact Nat.mod_eq_of_lt (i 2).isLt))

/-- The sum of the four products, before the activation. -/
theorem presum_apply (x0 : FVec Ideal S4x4096x2048 .f32) (x1 : FVec Ideal S4x2048 .f32) (i : S4x4096x2048.Idx) :
    val_main_v27 (F := Ideal) x0 x1 i
      = taps (shifted x0 (i 0) (i 2)) (x1 (ix2 (0 : Fin 4) (i 2))) (x1 (ix2 (1 : Fin 4) (i 2))) (x1 (ix2 (2 : Fin 4) (i 2)))
          (x1 (ix2 (3 : Fin 4) (i 2))) (i 1).val := by
  rw [val_main_v27_apply, val_main_v26_apply, val_main_v20_apply, val_main_v19_apply, val_main_v13_apply,
    val_main_v12_apply, val_main_v6_apply, val_main_v1_apply, val_main_v7_apply, val_main_v14_apply, val_main_v21_apply,
    tap0_apply, tap1_apply, tap2_apply, tap3_apply, padded_apply, padded_apply, padded_apply, padded_apply]
  rfl

/-- The reference's first result is the specification. -/
theorem result_eq (x0 : FVec Ideal S4x4096x2048 .f32) (x1 : FVec Ideal S4x2048 .f32) :
    val_main_v28 (F := Ideal) x0 x1 = conv x0 x1 := by
  funext i
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, presum_apply]
  -- the word 0x3F800000 is the number 1, and 1 / (1 + e^(-v)) in the host's operations is the logistic function
  simp only [Ideal.ofBits_def, Ideal.ofBits_one_f32]
  rfl

end Cert.ReferenceIdeal.RefValue

end
-- ==== Proof.Pieces.lean ====
/-
  What one run of the kernel body leaves behind, as values.

  The body stores twice: the whole output block, and the whole carried tail (eight rows). In both cases of the
  branch on the second grid coordinate the output block is ONE function `block x w tail` of the loaded x-block,
  the loaded taps and the tail it finds, and the new tail is rows 504–511 of the x-block. The cases differ only in
  the tail found: at the first tile of a batch the body has just overwritten it with zeros, and the load that
  follows reads those zeros back; at every other tile it is what the previous point left.
-/
import proofs.«144055_j730144440447_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block as a function of the x-block, the taps and the tail found. -/
abbrev block (x : Vec F S1x512x2048 .f32) (w : Vec F S4x2048 .f32) (tail : Vec F S8x2048 .f32) : Vec F S1x512x2048 .f32 :=
  k0_pay4 x w tail
/-- The tail left for the next point: rows 504–511 of the x-block. -/
abbrev newTail (x : Vec F S1x512x2048 .f32) : Vec F S8x2048 .f32 := k0_pay1 (k0_pay5 x)
/-- The tail at the first tile of a batch: zeros. -/
abbrev zeroTail : Vec F S8x2048 .f32 := k0_pay2 (F := F)

/-- First tile of a batch: the output block is computed from the zero tail. -/
theorem out_A (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x512x2048 .f32) (h4 : a4.IsWhole)
    (a5 : Memref sig .tc .vmem S8x2048 .f32) (h5 : a5.IsWhole) (hc : cond0_0 i)
    (x0 : Vec F S1x512x2048 .f32) (x1 : Vec F S4x2048 .f32) :
    out0_A_2 c i a2 h2 a3 h3 a4 h4 a5 h5 hc x0 x1 = block x0 x1 (zeroTail (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S1x512x2048) hz3,
    View.ld_unit_zero (S := S4x2048) hz2, View.readCov_unit_zero (S := S8x2048) _ hz2]

/-- First tile of a batch: the tail left is the last eight rows of the x-block (the later store wins over the zeros). -/
theorem sout_A (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x512x2048 .f32) (h4 : a4.IsWhole)
    (a5 : Memref sig .tc .vmem S8x2048 .f32) (h5 : a5.IsWhole) (hc : cond0_0 i)
    (x0 : Vec F S1x512x2048 .f32) (x1 : Vec F S4x2048 .f32) :
    sout0_A_0 c i a2 h2 a3 h3 a4 h4 a5 h5 hc x0 x1 = newTail x0 := by
  unfold sout0_A_0
  rw [View.read_writes_eq_canon _ _ _ (scover0_A_0 c i a2 h2 a3 h3 a4 h4 a5 h5 hc x0 x1)]
  unfold kernelRun0_A
  dsimp only
  sl_unfold_words
  rw [View.canon_cons_unit_zero (S := S8x2048) hz2]
  simp only [View.readAt_eq_ld, h2.read_unread, View.ld_unit_zero (S := S1x512x2048) hz3]

/-- Any other tile: the output block is computed from the tail the previous point left. -/
theorem out_B (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x512x2048 .f32) (h4 : a4.IsWhole)
    (a5 : Memref sig .tc .vmem S8x2048 .f32) (h5 : a5.IsWhole) (hc : ¬cond0_0 i)
    (x0 : Vec F S1x512x2048 .f32) (x1 : Vec F S4x2048 .f32) (xs0 : Vec F S8x2048 .f32) :
    out0_B_2 c i a2 h2 a3 h3 a4 h4 a5 h5 hc x0 x1 xs0 = block x0 x1 xs0 := by
  unfold out0_B_2
  rw [View.read_writes_eq_canon _ _ _ (cover0_B_2 c i a2 h2 a3 h3 a4 h4 a5 h5 hc x0 x1 xs0)]
  unfold kernelRun0_B
  dsimp only
  sl_unfold_words
  rw [View.canon_unit_zero hz3]
  simp only [View.readAt_eq_ld, h2.read_unread, h3.read_unread, h5.read_unread, View.ld_unit_zero (S := S1x512x2048) hz3,
    View.ld_unit_zero (S := S4x2048) hz2, View.ld_unit_zero (S := S8x2048) hz2]

/-- Any other tile: the tail left is again the last eight rows of the x-block. -/
theorem sout_B (c : Dev nD) (i : grid0.Coords) (a2 : Memref sig .tc .vmem S1x512x2048 .f32) (h2 : a2.IsWhole)
    (a3 : Memref sig .tc .vmem S4x2048 .f32) (h3 : a3.IsWhole) (a4 : Memref sig .tc .vmem S1x512x2048 .f32) (h4 : a4.IsWhole)
    (a5 : Memref sig .tc .vmem S8x2048 .f32) (h5 : a5.IsWhole) (hc : ¬cond0_0 i)
    (x0 : Vec F S1x512x2048 .f32) (x1 : Vec F S4x2048 .f32) (xs0 : Vec F S8x2048 .f32) :
    sout0_B_0 c i a2 h2 a3 h3 a4 h4 a5 h5 hc x0 x1 xs0 = newTail x0 := by
  unfold sout0_B_0
  rw [View.read_writes_eq_canon _ _ _ (scover0_B_0 c i a2 h2 a3 h3 a4 h4 a5 h5 hc x0 x1 xs0)]
  unfold kernelRun0_B
  dsimp only
  sl_unfold_words
  rw [View.canon_unit_zero hz2]
  simp only [View.readAt_eq_ld, h2.read_unread, View.ld_unit_zero (S := S1x512x2048) hz3]

end Cert.KernelIdeal.Pieces

end
-- ==== Proof.Payload.lean ====
/-
  The body's arithmetic, read at one entry, at the ideal instance.

  The body stacks the last three rows of the tail on top of the 512 rows of the x-block (515 rows), takes the
  four windows of 512 rows starting at rows 0, 1, 2, 3, multiplies window k by tap k (row k of w repeated down
  the rows), adds the four products left to right and applies v ↦ v · σ(v). So entry (r, d) of the output block is
  `silu (taps ρ w₀ w₁ w₂ w₃ r)` for the row ρ of channel d of the stacked rows: ρ n is row 5 + n of the tail for
  n < 3 and row n - 3 of the x-block from there on.

  The tail the body leaves is rows 504–511 of the x-block, and the tail a first tile starts from is zero.
-/
import proofs.«144055_j730144440447_1_alg».proof.Proof.Pieces
import proofs.«144055_j730144440447_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Payload

open Idealize.ShloMosaic Idealize.ShloMosaic.ValueIdx
open Cert.KernelIdeal Cert.KernelIdeal.Gen Cert.KernelIdeal.Pieces Cert.CausalConv

/-- Channel `d` of the 515 stacked rows: the tail's rows 5, 6, 7, then the x-block's rows. -/
def stackedRow (x : FVec Ideal S1x512x2048 .f32) (tail : FVec Ideal S8x2048 .f32) (d : Fin 2048) (n : ℕ) : EReal :=
  if hn : n < 3 then tail (ix2 (⟨5 + n, by omega⟩ : Fin 8) d)
  else if h : n - 3 < 512 then x (ix3 (0 : Fin 1) (⟨n - 3, h⟩ : Fin 512) d) else 0

section Layout
variable {α : Type}

/-- Putting a unit axis in front of a matrix does not move its entries. -/
theorem addUnit_apply (v : S512x2048.Idx → α) (h : S512x2048.ShapeCasts S1x512x2048) (u : Fin 1) (r : Fin 512) (d : Fin 2048) :
    shapeCast S1x512x2048 v h (ix3 u r d) = v (ix2 r d) :=
  (shapeCast_addUnit_apply _ v h (ix3 u r d)).trans
    (congrArg v (funext fun a => match a with | ⟨0, _⟩ => rfl | ⟨1, _⟩ => rfl))

/-- Dropping the unit axis in front of a block does not move its entries. -/
theorem dropUnit_apply (v : S1x512x2048.Idx → α) (h : S1x512x2048.ShapeCasts S512x2048) (r : Fin 512) (d : Fin 2048) :
    shapeCast S512x2048 v h (ix2 r d) = v (ix3 (0 : Fin 1) r d) :=
  (shapeCast_dropUnit_apply _ v h (ix2 r d)).trans
    (congrArg v (funext fun a => match a with | ⟨0, _⟩ => rfl | ⟨1, _⟩ => rfl | ⟨2, _⟩ => rfl))

/-- Row `k` of the taps, repeated down the 512 rows, read at (r, d) is `w[k, d]`. -/
theorem tapRows_apply (k : ℕ) (w : S4x2048.Idx → α) (hs : S4x2048.Slices ![k, 0] S1x2048) (h1 : S1x2048.ShapeCasts S2048)
    (h2 : S2048.ShapeCasts S1x2048) (hb : S1x2048.Broadcasts S512x2048) (r : Fin 512) (d : Fin 2048) :
    broadcastTo S512x2048 (shapeCast S1x2048 (shapeCast S2048 (extractStridedSlice S1x2048 ![k, 0] w hs) h1) h2) hb (ix2 r d)
      = w (ix2 (⟨k, by have e : k + 1 ≤ 4 := hs.2 (0 : Fin 2); omega⟩ : Fin 4) d) := by
  rw [shapeCast_shapeCast]
  refine (broadcastTo_apply _ hb (ix2 r d) (ix2 (0 : Fin 1) d) (fun a => match a with
    | ⟨0, _⟩ => rfl
    | ⟨1, _⟩ => rfl)).trans ?_
  exact extractStridedSlice_apply ![k, 0] w hs (ix2 (0 : Fin 1) d) _ (fun a => match a with
    | ⟨0, _⟩ => rfl
    | ⟨1, _⟩ => by show d.val = 0 + d.val; omega)

end Layout

/-- Entry (n, d) of the 515 stacked rows. -/
theorem stacked_apply (x : FVec Ideal S1x512x2048 .f32) (tail : FVec Ideal S8x2048 .f32)
    (hs : S8x2048.Slices ![5, 0] S3x2048) (hc : S1x512x2048.ShapeCasts S512x2048)
    (hcat : Shape.Concatenates [S3x2048, S512x2048] S515x2048 0) (n : Fin 515) (d : Fin 2048) :
    concatenate S515x2048 0 [⟨S3x2048, extractStridedSlice S3x2048 ![5, 0] tail hs⟩, ⟨S512x2048, shapeCast S512x2048 x hc⟩] hcat (ix2 n d)
      = stackedRow x tail d n.val := by
  unfold stackedRow
  have hn515 : n.val < 515 := n.isLt
  by_cases hn : n.val < 3
  · rw [dif_pos hn]
    refine (concatenate_pair_apply_left (t := S515x2048) (s₁ := S3x2048) (s₂ := S512x2048) (0 : Fin 2) _ _ hcat (ix2 n d) rfl (ix2 (⟨n.val, hn⟩ : Fin 3) d) (fun b => match b with
      | ⟨0, _⟩ => rfl
      | ⟨1, _⟩ => rfl)).trans ?_
    exact extractStridedSlice_apply ![5, 0] tail hs (ix2 (⟨n.val, hn⟩ : Fin 3) d) _ (fun a => match a with
      | ⟨0, _⟩ => rfl
      | ⟨1, _⟩ => by show d.val = 0 + d.val; omega)
  · have h512 : n.val - 3 < 512 := by omega
    rw [dif_neg hn, dif_pos h512]
    refine (concatenate_pair_apply_right (t := S515x2048) (s₁ := S3x2048) (s₂ := S512x2048) (0 : Fin 2) _ _ hcat (ix2 n d) rfl rfl (ix2 (⟨n.val - 3, h512⟩ : Fin 512) d) (fun b hb => match b, hb with
      | ⟨0, _⟩, hb => absurd rfl hb
      | ⟨1, _⟩, _ => rfl) (by show (n.val - 3) + 3 = n.val; omega)).trans ?_
    exact dropUnit_apply x hc _ d

/-- Window `k` of the stacked rows, read at (r, d), is their entry (k + r, d). -/
theorem window_apply (k : ℕ) (x : FVec Ideal S1x512x2048 .f32) (tail : FVec Ideal S8x2048 .f32)
    (hs : S8x2048.Slices ![5, 0] S3x2048) (hc : S1x512x2048.ShapeCasts S512x2048)
    (hcat : Shape.Concatenates [S3x2048, S512x2048] S515x2048 0) (hw : S515x2048.Slices ![k, 0] S512x2048)
    (r : Fin 512) (d : Fin 2048) :
    extractStridedSlice S512x2048 ![k, 0]
        (concatenate S515x2048 0 [⟨S3x2048, extractStridedSlice S3x2048 ![5, 0] tail hs⟩, ⟨S512x2048, shapeCast S512x2048 x hc⟩] hcat) hw (ix2 r d)
      = stackedRow x tail d (k + r.val) := by
  have e : k + 512 ≤ 515 := hw.2 (0 : Fin 2)
  have hr : r.val < 512 := r.isLt
  refine (extractStridedSlice_apply ![k, 0] _ hw (ix2 r d) (ix2 (⟨k + r.val, by omega⟩ : Fin 515) d) (fun a => match a with
    | ⟨0, _⟩ => rfl
    | ⟨1, _⟩ => by show d.val = 0 + d.val; omega)).trans ?_
  exact stacked_apply x tail hs hc hcat _ d

theorem logistic_apply {s : Shape} {φ : FTy} (a : FVec Ideal s φ) (i : s.Idx) : logistic a i = Ideal.logistic (a i) := rfl

/-- Entry (r, d) of the output block. -/
theorem block_apply (x : FVec Ideal S1x512x2048 .f32) (w : FVec Ideal S4x2048 .f32) (tail : FVec Ideal S8x2048 .f32)
    (u : Fin 1) (r : Fin 512) (d : Fin 2048) :
    block (F := Ideal) x w tail (ix3 u r d)
      = silu (taps (stackedRow x tail d) (w (ix2 (0 : Fin 4) d)) (w (ix2 (1 : Fin 4) d)) (w (ix2 (2 : Fin 4) d)) (w (ix2 (3 : Fin 4) d)) r.val) := by
  unfold block k0_pay4 k0_pay3 silu taps
  simp only [addUnit_apply, mulf_apply, addf_apply, logistic_apply, window_apply, tapRows_apply, Nat.zero_add]
  rfl

/-- Entry (j, d) of the tail left for the next point: row 504 + j of the x-block. -/
theorem newTail_apply (x : FVec Ideal S1x512x2048 .f32) (j : Fin 8) (d : Fin 2048) :
    newTail (F := Ideal) x (ix2 j d) = x (ix3 (0 : Fin 1) (⟨504 + j.val, by have := j.isLt; omega⟩ : Fin 512) d) := by
  unfold newTail k0_pay1 k0_pay5 k0_pay3
  simp only [shapeCast_self]
  refine (extractStridedSlice_apply ![504, 0] _ _ (ix2 j d) (ix2 (⟨504 + j.val, by have := j.isLt; omega⟩ : Fin 512) d) (fun a => match a with
    | ⟨0, _⟩ => rfl
    | ⟨1, _⟩ => by show d.val = 0 + d.val; omega)).trans ?_
  exact dropUnit_apply x _ _ d

/-- The tail a first tile starts from is zero. -/
theorem zeroTail_apply (i : S8x2048.Idx) : zeroTail (F := Ideal) i = 0 := by
  unfold zeroTail k0_pay2
  simp only [shapeCast_self]
  exact Ideal.ofBits_zero_f32

end Cert.KernelIdeal.Payload

end
-- ==== Proof.Value.lean ====
/-
  The kernel's first result, over the whole grid, is the specification.

  Grid point t = 8·b + τ handles batch b and tile τ: rows 512τ … 512τ + 511 of the sequence. Its x-block is those
  rows of x[b], its w-block is all of w, and what it writes back is those rows of the result. The tail every
  point leaves is rows 504–511 of its x-block, that is rows 512τ + 504 … 512τ + 511 of x[b]; a point with τ ≠ 0
  finds the tail of point t - 1, which is tile τ - 1 of the SAME batch, so its rows 5, 6, 7 are rows
  512τ - 3, 512τ - 2, 512τ - 1 of x[b]: exactly the three entries before the tile. A point with τ = 0 starts from
  zeros: the three zeros the specification puts in front of the sequence. Either way the 515 stacked rows of the
  point are entries 512τ … 512τ + 514 of the sequence with three zeros in front, so the body's four taps at row r
  are the specification's at position 512τ + r. The 32 blocks tile the result array.
-/
import proofs.«144055_j730144440447_1_alg».proof.Proof.Payload
import Idealize.ShloMosaic.Lib.Pipeline.Value

set_option maxRecDepth 16384

noncomputable section

namespace Cert.KernelIdeal.Value

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pieces Cert.KernelIdeal.Payload Cert.CausalConv

variable (m : (ℓ : Loc nD τ sig) → Buf (Elt Ideal) ℓ) (ρ : Dev nD → PrngReg)

/-- The printed index maps over the grid: windows 0 and 2 are at block (t / 8, t % 8, 0), window 1 at (0, 0). -/
theorem idx_facts : ∀ t : Fin cfg0.N,
    win0_0.index t (0 : Fin 3) = t.val / 8 ∧ win0_0.index t (1 : Fin 3) = t.val % 8 ∧ win0_0.index t (2 : Fin 3) = 0
    ∧ win0_2.index t (0 : Fin 3) = t.val / 8 ∧ win0_2.index t (1 : Fin 3) = t.val % 8 ∧ win0_2.index t (2 : Fin 3) = 0
    ∧ win0_1.index t (0 : Fin 2) = 0 ∧ win0_1.index t (1 : Fin 2) = 0 :=
  (by decide +kernel : ∀ t : Fin grid0.N, _)

theorem lt32 (t : Fin cfg0.N) : t.val < 32 := lt_of_lt_of_eq t.isLt (show cfg0.N = 32 from N_0)

/-- Position `512·(t % 8) + r` of batch `t / 8`: where row `r` of point `t`'s block sits in the array. -/
abbrev seqIdx (t : Fin cfg0.N) (r : Fin 512) (d : Fin 2048) : S4x4096x2048.Idx :=
  ix3 (⟨t.val / 8, by have := lt32 t; omega⟩ : Fin 4) (⟨512 * (t.val % 8) + r.val, by have := r.isLt; omega⟩ : Fin 4096) d

/-- Two indices with equal coordinates. -/
theorem ix3_congr {b b' : Fin 4} {n n' : Fin 4096} (d : Fin 2048) (hb : b.val = b'.val) (hn : n.val = n'.val) :
    (ix3 b n d : S4x4096x2048.Idx) = ix3 b' n' d := by
  rw [Fin.ext hb, Fin.ext hn]

/-- Point `t`'s x-block is rows 512·(t % 8) … of batch t / 8. -/
theorem xblk_apply (c : Dev nD) (t : Fin cfg0.N) (u : Fin 1) (r : Fin 512) (d : Fin 2048) :
    (iblk m c 0 t : Vec Ideal S1x512x2048 .f32) (ix3 u r d) = V m c main_arg0 (seqIdx t r d) := by
  obtain ⟨e0, e1, e2, -⟩ := idx_facts t
  have hu : u.val < 1 := u.isLt
  unfold iblk
  rw [View.read_apply]
  show V m c main_arg0 _ = V m c main_arg0 _
  congr 1
  funext a; apply Fin.ext
  match a with
  | ⟨0, _⟩ => show win0_0.index t (0 : Fin 3) * 1 + 1 * u.val = t.val / 8; omega
  | ⟨1, _⟩ => show win0_0.index t (1 : Fin 3) * 512 + 1 * r.val = 512 * (t.val % 8) + r.val; omega
  | ⟨2, _⟩ => show win0_0.index t (2 : Fin 3) * 2048 + 1 * d.val = d.val; omega

/-- Every point's w-block is all of w. -/
theorem wblk_apply (c : Dev nD) (t : Fin cfg0.N) (k : Fin 4) (d : Fin 2048) :
    (iblk m c 1 t : Vec Ideal S4x2048 .f32) (ix2 k d) = V m c main_arg1 (ix2 k d) := by
  obtain ⟨-, -, -, -, -, -, e0, e1⟩ := idx_facts t
  unfold iblk
  rw [View.read_apply]
  show V m c main_arg1 _ = V m c main_arg1 _
  congr 1
  funext a; apply Fin.ext
  match a with
  | ⟨0, _⟩ => show win0_1.index t (0 : Fin 2) * 4 + 1 * k.val = k.val; omega
  | ⟨1, _⟩ => show win0_1.index t (1 : Fin 2) * 2048 + 1 * d.val = d.val; omega

/-- The tail after ANY point is the last eight rows of that point's x-block. -/
theorem tail_after (c : Dev nD) (n : ℕ) (h : n < cfg0.N) :
    (outsAt0 m c n h).2 = newTail (F := Ideal) (iblk m c 0 ⟨n, h⟩) := by
  by_cases h0 : n % 8 = 0
  · rw [outsAt0_A m c ⟨n, h⟩ h0]
    dsimp only
    exact sout_A (F := Ideal) c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) scM0_0 (Memref.isWhole_whole _) ((hcond0_0 ⟨n, h⟩).mpr h0) (iblk m c 0 ⟨n, h⟩) (iblk m c 1 ⟨n, h⟩)
  · rw [outsAt0_B m c ⟨n, h⟩ h0]
    dsimp only
    exact sout_B (F := Ideal) c (grid0.coords ⟨n, h⟩) (ms0_0 ⟨n, h⟩) (hs0_0 ⟨n, h⟩) (ms0_1 ⟨n, h⟩) (hs0_1 ⟨n, h⟩) (ms0_2 ⟨n, h⟩)
      (hs0_2 ⟨n, h⟩) scM0_0 (Memref.isWhole_whole _) (fun hh => h0 ((hcond0_0 ⟨n, h⟩).mp hh)) (iblk m c 0 ⟨n, h⟩) (iblk m c 1 ⟨n, h⟩)
      (outsAt0 m c (n - 1) (Nat.lt_of_le_of_lt (Nat.sub_le _ _) h)).2

/-- The stacked rows of point `t` are the sequence with three zeros in front, from position 512·(t % 8) on — given
    that the tail's rows 5, 6, 7 are the three entries before the tile. -/
theorem stackedRow_eq (c : Dev nD) (t : Fin cfg0.N) (tail : FVec Ideal S8x2048 .f32) (r : Fin 512) (d : Fin 2048)
    (htail : ∀ (n : ℕ) (hn : n < 3), tail (ix2 (⟨5 + n, by omega⟩ : Fin 8) d)
      = shifted (V m c main_arg0) (⟨t.val / 8, by have := lt32 t; omega⟩ : Fin 4) d (n + 512 * (t.val % 8)))
    (k : ℕ) (hk : k ≤ 3) :
    stackedRow (iblk m c 0 t) tail d (k + r.val)
      = shifted (V m c main_arg0) (⟨t.val / 8, by have := lt32 t; omega⟩ : Fin 4) d (k + (512 * (t.val % 8) + r.val)) := by
  have hr : r.val < 512 := r.isLt
  have ht := lt32 t
  unfold stackedRow
  by_cases hn : k + r.val < 3
  · rw [dif_pos hn, htail _ hn]
    exact congrArg _ (by omega)
  · have h512 : k + r.val - 3 < 512 := by omega
    rw [dif_neg hn, dif_pos h512, xblk_apply]
    unfold shifted
    rw [dif_pos ⟨by omega, by omega⟩]
    exact congrArg _ (ix3_congr d rfl (by show 512 * (t.val % 8) + (k + r.val - 3) = k + (512 * (t.val % 8) + r.val) - 3; omega))

/-- Over plain arrays: an output block computed from an x-block, a w-block and a tail is the specification at
    position `s0 + r` of batch `b`, once the w-block is `W` and the stacked rows are the zero-fronted sequence of
    `X[b]` from position `s0` on. -/
theorem block_eq_conv (xb : FVec Ideal S1x512x2048 .f32) (wb : FVec Ideal S4x2048 .f32) (tail : FVec Ideal S8x2048 .f32)
    (X : FVec Ideal S4x4096x2048 .f32) (W : FVec Ideal S4x2048 .f32) (b : Fin 4) (s0 : ℕ) (u : Fin 1) (r : Fin 512) (d : Fin 2048)
    (hs : s0 + r.val < 4096) (hw : ∀ k : Fin 4, wb (ix2 k d) = W (ix2 k d))
    (hrow : ∀ k, k ≤ 3 → stackedRow xb tail d (k + r.val) = shifted X b d (k + (s0 + r.val))) :
    block (F := Ideal) xb wb tail (ix3 u r d) = conv X W (ix3 b (⟨s0 + r.val, hs⟩ : Fin 4096) d) := by
  rw [block_apply, hw, hw, hw, hw]
  exact congrArg silu (taps_congr _ _ _ _ _ _ hrow)

/-- What point `t` leaves in the output's staging buffer is rows 512·(t % 8) … of batch t / 8 of the specification. -/
theorem point_out (c : Dev nD) (t : Fin cfg0.N) (y : S1x512x2048.Idx) :
    ((outsAt0 m c t.val t.isLt).1 : Vec Ideal S1x512x2048 .f32) y
      = conv (V m c main_arg0) (V m c main_arg1) (seqIdx t (y 1) (y 2)) := by
  obtain ⟨u, r, d, rfl⟩ : ∃ (u : Fin 1) (r : Fin 512) (d : Fin 2048), y = ix3 u r d := ⟨y 0, y 1, y 2, eq_ix3 y⟩
  have ht := lt32 t
  have hr : r.val < 512 := r.isLt
  by_cases h0 : t.val % 8 = 0
  · -- first tile of a batch: the tail is zero, as are the three entries before position 0
    rw [outsAt0_A m c t h0]
    dsimp only
    refine (congrFun (out_A (F := Ideal) c (grid0.coords t) (ms0_0 t) (hs0_0 t) (ms0_1 t) (hs0_1 t) (ms0_2 t) (hs0_2 t) scM0_0
      (Memref.isWhole_whole _) ((hcond0_0 t).mpr h0) (iblk m c 0 t) (iblk m c 1 t)) (ix3 u r d)).trans ?_
    refine block_eq_conv (iblk m c 0 t) (iblk m c 1 t) (zeroTail (F := Ideal)) (V m c main_arg0) (V m c main_arg1)
      (⟨t.val / 8, by omega⟩ : Fin 4) (512 * (t.val % 8)) u r d (by omega) (fun k => wblk_apply m c t k d)
      (fun k hk => stackedRow_eq m c t (zeroTail (F := Ideal)) r d (fun n hn => ?_) k hk)
    rw [zeroTail_apply]
    unfold shifted
    rw [dif_neg (by omega)]
  · -- any other tile: the tail is the end of the previous tile of the same batch
    have hp : t.val - 1 < cfg0.N := Nat.lt_of_le_of_lt (Nat.sub_le _ _) t.isLt
    rw [outsAt0_B m c t h0]
    dsimp only
    refine (congrFun (out_B (F := Ideal) c (grid0.coords t) (ms0_0 t) (hs0_0 t) (ms0_1 t) (hs0_1 t) (ms0_2 t) (hs0_2 t) scM0_0
      (Memref.isWhole_whole _) (fun hh => h0 ((hcond0_0 t).mp hh)) (iblk m c 0 t) (iblk m c 1 t)
      (outsAt0 m c (t.val - 1) hp).2) (ix3 u r d)).trans ?_
    refine block_eq_conv (iblk m c 0 t) (iblk m c 1 t) (outsAt0 m c (t.val - 1) hp).2 (V m c main_arg0) (V m c main_arg1)
      (⟨t.val / 8, by omega⟩ : Fin 4) (512 * (t.val % 8)) u r d (by omega) (fun k => wblk_apply m c t k d)
      (fun k hk => stackedRow_eq m c t (outsAt0 m c (t.val - 1) hp).2 r d (fun n hn => ?_) k hk)
    refine (congrFun (tail_after m c (t.val - 1) hp) _).trans ?_
    refine (newTail_apply (iblk m c 0 ⟨t.val - 1, hp⟩) (⟨5 + n, by omega⟩ : Fin 8) d).trans ?_
    refine (xblk_apply m c ⟨t.val - 1, hp⟩ (0 : Fin 1) _ d).trans ?_
    unfold shifted
    rw [dif_pos ⟨by omega, by omega⟩]
    exact congrArg _ (ix3_congr d (by show (t.val - 1) / 8 = t.val / 8; omega)
      (by show 512 * ((t.val - 1) % 8) + (504 + (5 + n)) = n + 512 * (t.val % 8) - 3; omega))

/-- WHAT POINT `t` WRITES BACK is block `t` of the specification of the argument arrays. -/
theorem flushed_eq (c : Dev nD) (t : Fin cfg0.N) :
    (dats m 0 c).flushed 2 t = ((cfg0.win 2).blk t).view.read (Elt Ideal) (conv (V m c main_arg0) (V m c main_arg1)) := by
  show (cfg0.win 2).cut (grid0.coords t) ((dats m 0 c).after 2 t) = _
  rw [after0_2]
  obtain ⟨-, -, -, e0, e1, e2, -⟩ := idx_facts t
  funext y
  refine (point_out m c t y).trans ?_
  rw [View.read_apply]
  show conv (V m c main_arg0) (V m c main_arg1) _ = conv (V m c main_arg0) (V m c main_arg1) _
  congr 1
  have hy0 : (y 0).val < 1 := (y 0).isLt
  funext a; apply Fin.ext
  match a with
  | ⟨0, _⟩ => show t.val / 8 = win0_2.index t (0 : Fin 3) * 1 + 1 * (y 0).val; omega
  | ⟨1, _⟩ => show 512 * (t.val % 8) + (y 1).val = win0_2.index t (1 : Fin 3) * 512 + 1 * (y 1).val; omega
  | ⟨2, _⟩ => show (y 2).val = win0_2.index t (2 : Fin 3) * 2048 + 1 * (y 2).val; omega

/-- An index of the array is in point `t`'s block iff each coordinate is in the block's range on its axis. -/
theorem mem_blk (t : Fin cfg0.N) (i : S4x4096x2048.Idx) :
    i ∈ ((cfg0.win 2).blk t).view.set ↔ ∀ a : Fin 3, win0_2.index t a * S1x512x2048.size a ≤ (i a).val ∧ (i a).val < win0_2.index t a * S1x512x2048.size a + S1x512x2048.size a := by
  show i ∈ ((View.whole main_v0).slice (win0_2.rect t)).set ↔ _
  rw [View.set_slice_whole, Rect.mem_set_unit]
  exact Iff.rfl

/-- The 32 blocks cover the array: (b, s, d) is in the block of point 8·b + s / 512. -/
theorem cover (i : S4x4096x2048.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 2048 := (i 2).isLt
  have hN : cfg0.N = 32 := N_0
  let t : Fin cfg0.N := ⟨8 * (i 0).val + (i 1).val / 512, by rw [hN]; omega⟩
  have tv : t.val = 8 * (i 0).val + (i 1).val / 512 := rfl
  obtain ⟨-, -, -, e0, e1, e2, -⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 512 ≤ (i 1).val ∧ (i 1).val < win0_2.index t (1 : Fin 3) * 512 + 512; omega
  | ⟨2, _⟩ => show win0_2.index t (2 : Fin 3) * 2048 ≤ (i 2).val ∧ (i 2).val < win0_2.index t (2 : Fin 3) * 2048 + 2048; omega

/-- THE ARRAY after the run: the specification of the argument arrays. -/
theorem final (c : Dev nD) : (dats m 0 c).arrAt 2 cfg0.N = conv (V m c main_arg0) (V m c main_arg1) :=
  (dats m 0 c).arrAt_eq_of_cover 2 (conv (V m c main_arg0) (V m c main_arg1)) (fun t _ => flushed_eq m c t) cover

end Cert.KernelIdeal.Value

end
-- ==== Proof.KernelRun.lean ====
/-
  The kernel program's run, read: both results as functions of the two argument arrays.

  The first result is the array the 32 grid points wrote: the specification. The second is computed after the
  grid, by one slice of x — rows 4092–4095 of every batch — and x is an input of the grid, which the grid leaves
  as it found it.
-/
import proofs.«144055_j730144440447_1_alg».proof.Proof.Value
import Idealize.ShloMosaic.Lib.StableHlo.Run
import Idealize.ShloMosaic.Lib.Tactic

set_option maxRecDepth 16384

noncomputable section

namespace Cert.KernelIdeal.Value

open Idealize.ShloMosaic Idealize.ShloMosaic.TcCoe Idealize.SL.Sem Idealize.ShloMosaic.StableHlo
open Idealize.ShloMosaic.Pipeline (Dat)
open Cert.KernelIdeal Cert.KernelIdeal.Gen Cert.CausalConv

variable (m : (ℓ : Loc nD τ sig) → Buf (Elt Ideal) ℓ) (ρ : Dev nD → PrngReg)

/-- The grid only reads x: after it, x's array holds what it held before. -/
theorem arg0_kept (c : Dev nD) : (dats m 0 c).arrAt 0 cfg0.N = m ((c : Thread nD τ).loc main_arg0) :=
  ((dats m 0 c).arrAt_in 0 rfl _).trans ((A_eq m c 0).trans (V_main_arg0 m c))
/-- The same for w. -/
theorem arg1_kept (c : Dev nD) : (dats m 0 c).arrAt 1 cfg0.N = m ((c : Thread nD τ).loc main_arg1) :=
  ((dats m 0 c).arrAt_in 1 rfl _).trans ((A_eq m c 1).trans (V_main_arg1 m c))

/-- The second result: the slice taken after the grid reads x as it was at the start. -/
theorem state_result (c : Dev nD) :
    Pipeline.afterTail₀ cfgs (dats m) 0 (V0 m) [hostOps1] c main_v1
      = extractStridedSlice S4x4x2048 ![0, 4092, 0] (m ((c : Thread nD τ).loc main_arg0)) slices_S4x4096x2048_S4x4x2048_0_4092_0 := by
  unfold Pipeline.afterTail₀
  show StableHlo.after hostOps1 _ (Proc.devRef .tc main_v1) = _
  after_results
  exact congrArg (fun x => extractStridedSlice S4x4x2048 ![0, 4092, 0] x slices_S4x4096x2048_S4x4x2048_0_4092_0)
    ((Pipeline.withArrays_arr spec0 launch0.win.arr_inj c (V0 m c) (fun w => (dats m 0 c).arrAt w cfg0.N) 0).trans (arg0_kept m c))

/-- The buffer of the second result is no window's array and outlives the grid. -/
theorem state_mem : main_v1 ∈ Pipeline.restRefs sig (cfgs 0).spec :=
  Pipeline.mem_restRefs_of main_v1 rfl (fun w => by fin_cases w <;> decide)

/-- Every weakly fair execution of the kernel program terminates with the first result at the specification of the
    arguments, the second at the last four positions of x, and the arguments unchanged. -/
theorem run : θ_run defs (onTc (τ := τ) (main (F := Ideal))) ⟨m, fun _ => 0, ρ⟩ fun r => ∀ c : Dev nD,
      r.2.mem ((c : Thread nD τ).loc main_v0) = conv (m ((c : Thread nD τ).loc main_arg0)) (m ((c : Thread nD τ).loc main_arg1))
      ∧ r.2.mem ((c : Thread nD τ).loc main_v1)
          = extractStridedSlice S4x4x2048 ![0, 4092, 0] (m ((c : Thread nD τ).loc main_arg0)) slices_S4x4096x2048_S4x4x2048_0_4092_0
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 2).trans (final m c), ((h c).2 main_v1 state_mem).trans (state_result m c),
      ((h c).1 0).trans (arg0_kept m c), ((h c).1 1).trans (arg1_kept m c)⟩)
    (run_main m ρ)

end Cert.KernelIdeal.Value

end
-- ==== Proof.lean ====
/-
  The proof of `Cert.Claim` for a causal depthwise convolution (four taps along the sequence axis) followed by
  v ↦ v · σ(v), with the last four positions of the input returned beside it.

  Both programs compute, at batch b, position s and channel d,

      silu ( ((p s · w₀ + p (1+s) · w₁) + p (2+s) · w₂) + p (3+s) · w₃ ),     wₖ = w[k, d],

  where p is x[b, ·, d] with three zeros in front (Proof/Spec.lean). The reference builds p by padding the whole
  array (Proof/RefValue.lean). The kernel works tile by tile, 512 positions at a time: it puts the last three rows
  the previous tile of the same batch left behind, or three rows of zeros at a batch's first tile, on top of
  the tile's rows (Proof/Payload.lean, one tile; Proof/Value.lean, the tiles together; Proof/Pieces.lean reads what
  one run of the body stores). The products are added in the same order on both sides and σ is one function on the
  extended reals, whether written as the logistic function or as 1 / (1 + e^(-v)), so the two results are equal
  entry by entry with no appeal to the inputs being finite. The second result is the same slice of x on both sides.

  The three frames are the generated ones (the reference's is its generated run with the results dropped), and
  the idealization rewrote nothing, so `preserves` is `True`.
-/
import proofs.«144055_j730144440447_1_alg».proof.Defs
import proofs.«144055_j730144440447_1_alg».proof.Proof.Gen.Kernel
import proofs.«144055_j730144440447_1_alg».proof.Proof.Gen.Kernel.Skeleton
import proofs.«144055_j730144440447_1_alg».proof.Proof.Gen.Kernel.Launch
import proofs.«144055_j730144440447_1_alg».proof.Proof.Gen.Kernel.Points
import proofs.«144055_j730144440447_1_alg».proof.Proof.Gen.Kernel.Frame
import proofs.«144055_j730144440447_1_alg».proof.Proof.Gen.KernelIdeal
import proofs.«144055_j730144440447_1_alg».proof.Proof.Gen.KernelIdeal.Skeleton
import proofs.«144055_j730144440447_1_alg».proof.Proof.Gen.KernelIdeal.Launch
import proofs.«144055_j730144440447_1_alg».proof.Proof.Gen.KernelIdeal.Points
import proofs.«144055_j730144440447_1_alg».proof.Proof.Gen.KernelIdeal.Frame
import proofs.«144055_j730144440447_1_alg».proof.Proof.Gen.ReferenceIdeal
import proofs.«144055_j730144440447_1_alg».proof.Proof.Gen.ReferenceIdeal.Run
import proofs.«144055_j730144440447_1_alg».proof.Proof.Gen.ReferenceIdeal.Read
import proofs.«144055_j730144440447_1_alg».proof.Proof.Gen.Pre_finite_inputs
import proofs.«144055_j730144440447_1_alg».proof.Proof.RefValue
import proofs.«144055_j730144440447_1_alg».proof.Proof.KernelRun
import Idealize.ShloMosaic.Adequacy
import Idealize.ShloMosaic.Init

noncomputable section

namespace Cert.Proof

open Idealize.ShloMosaic Idealize.ShloMosaic.TcCoe Idealize.SL.Sem Cert.CausalConv

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- At the ideal instance the kernel's two results and the reference's, of arguments that agree, are the same
    two functions of the arguments: the specification, and the last four positions of x. -/
theorem algebraic : Cert.algebraic_KernelIdeal_ReferenceIdeal := by
  intro m ρ m' ρ' _ hagree
  refine ⟨fun c => conv (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => extractStridedSlice Cert.KernelIdeal.S4x4x2048 ![0, 4092, 0]
      (m ((c.tc : Thread Cert.KernelIdeal.nD Cert.KernelIdeal.τ).loc Cert.KernelIdeal.main_arg0))
      Cert.KernelIdeal.Facts₀.slices_S4x4096x2048_S4x4x2048_0_4092_0,
    Cert.KernelIdeal.Value.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v28_eq, Cert.ReferenceIdeal.RefValue.result_eq, (hagree c).1, (hagree c).2]
  · rw [(h c).2.1, (hagree c).1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
